-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S_ : Shape := ⟨0, ![]⟩

class Facts : Prop where
  bcast_S_S1024x1x3x32x32 : S_.BroadcastsInDim S1024x1x3x32x32 (![] : Fin 0 → Fin S1024x1x3x32x32.rank)
  reducesTo_S1024x1x3x32x32_S_d0_1_2_3_4 : S1024x1x3x32x32.ReducesTo [0, 1, 2, 3, 4] S_
  h_S_ : 0 < S_.numel
  bcast_S_S768x48 : S_.BroadcastsInDim S768x48 (![] : Fin 0 → Fin S768x48.rank)
  reducesTo_S768x48_S_d0_1 : S768x48.ReducesTo [0, 1] S_
  bcast_S_S1x768 : S_.BroadcastsInDim S1x768 (![] : Fin 0 → Fin S1x768.rank)
  reducesTo_S1x768_S_d0_1 : S1x768.ReducesTo [0, 1] S_
  bcast_S_S1x65x768 : S_.BroadcastsInDim S1x65x768 (![] : Fin 0 → Fin S1x65x768.rank)
  reducesTo_S1x65x768_S_d0_1_2 : S1x65x768.ReducesTo [0, 1, 2] S_

variable [Facts]

def fn_part1 {F : FTy → Type} [FloatOps F] (main_v13 : IVec S_ 1) (main_v16 : IVec S1x65x768 1) : IVec S_ 1 :=
  let main_c_5 : IVec S_ 1 := constantI S_ 1 1#1
  let main_v17 : IVec S_ 1 := (fun x v => Host.reduce IntOp.andi x v reducesTo_S1x65x768_S_d0_1_2 h_S_) main_v16 main_c_5
  let main_v18 : IVec S_ 1 := andi main_v13 main_v17
  main_v18

def fn {F : FTy → Type} [FloatOps F] (main_arg0 : FVec F S1024x1x3x32x32 .f32) (main_arg1 : FVec F S768x48 .f32) (main_arg2 : FVec F S1x768 .f32) (main_arg3 : FVec F S1x65x768 .f32) : IVec S_ 1 :=
  let main_v0 : FVec F S1024x1x3x32x32 .f32 := Host.absf main_arg0
  let main_cst : FVec F S_ .f32 := constant S_ .f32 0x7F800000#32
  let main_v1 : FVec F S1024x1x3x32x32 .f32 := broadcastInDim S1024x1x3x32x32 ![] bcast_S_S1024x1x3x32x32 main_cst
  let main_v2 : IVec S1024x1x3x32x32 1 := cmpf .olt main_v0 main_v1
  let main_c : IVec S_ 1 := constantI S_ 1 1#1
  let main_v3 : IVec S_ 1 := (fun x v => Host.reduce IntOp.andi x v reducesTo_S1024x1x3x32x32_S_d0_1_2_3_4 h_S_) main_v2 main_c
  let main_v4 : FVec F S768x48 .f32 := Host.absf main_arg1
  let main_cst_0 : FVec F S_ .f32 := constant S_ .f32 0x7F800000#32
  let main_v5 : FVec F S768x48 .f32 := broadcastInDim S768x48 ![] bcast_S_S768x48 main_cst_0
  let main_v6 : IVec S768x48 1 := cmpf .olt main_v4 main_v5
  let main_c_1 : IVec S_ 1 := constantI S_ 1 1#1
  let main_v7 : IVec S_ 1 := (fun x v => Host.reduce IntOp.andi x v reducesTo_S768x48_S_d0_1 h_S_) main_v6 main_c_1
  let main_v8 : IVec S_ 1 := andi main_v3 main_v7
  let main_v9 : FVec F S1x768 .f32 := Host.absf main_arg2
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S1x65x768 .f32 := Host.absf main_arg3
  let main_cst_4 : FVec F S_ .f32 := constant S_ .f32 0x7F800000#32
  let main_v15 : FVec F S1x65x768 .f32 := broadcastInDim S1x65x768 ![] bcast_S_S1x65x768 main_cst_4
  let main_v16 : IVec S1x65x768 1 := cmpf .olt main_v14 main_v15
  fn_part1 (F := F) main_v13 main_v16
-- ==== Kernel.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S1024x1x3x8x4x8x4 : Shape := ⟨7, ![1024, 1, 3, 8, 4, 8, 4]⟩
abbrev S1024x8x8x1x3x4x4 : Shape := ⟨7, ![1024, 8, 8, 1, 3, 4, 4]⟩
abbrev S1024x64x48 : Shape := ⟨3, ![1024, 64, 48]⟩
abbrev S48x768 : Shape := ⟨2, ![48, 768]⟩
abbrev S1x1x768 : Shape := ⟨3, ![1, 1, 768]⟩
abbrev S1x64x768 : Shape := ⟨3, ![1, 64, 768]⟩
abbrev S1024x65x768 : Shape := ⟨3, ![1024, 65, 768]⟩
abbrev S64x64x48 : Shape := ⟨3, ![64, 64, 48]⟩
abbrev S64x65x768 : Shape := ⟨3, ![64, 65, 768]⟩
abbrev S32x64x48 : Shape := ⟨3, ![32, 64, 48]⟩
abbrev S2048x48 : Shape := ⟨2, ![2048, 48]⟩
abbrev S2048x768 : Shape := ⟨2, ![2048, 768]⟩
abbrev S32x64x768 : Shape := ⟨3, ![32, 64, 768]⟩
abbrev S32x1x768 : Shape := ⟨3, ![32, 1, 768]⟩
abbrev S32x65x768 : Shape := ⟨3, ![32, 65, 768]⟩

abbrev nBuf : Space → Nat
  | .hbm => 15
  | .vmem => 7
  | .smem => 0
  | _ => 0

abbrev bufTy : (tb : Table) → Fin (tcTables nBuf tb) → BufTy
  | .hbm, ⟨0, _⟩ => ⟨S1024x1x3x32x32, .f32⟩
  | .hbm, ⟨1, _⟩ => ⟨S768x48, .f32⟩
  | .hbm, ⟨2, _⟩ => ⟨S1x768, .f32⟩
  | .hbm, ⟨3, _⟩ => ⟨S1x65x768, .f32⟩
  | .hbm, ⟨4, _⟩ => ⟨S1024x1x3x8x4x8x4, .f32⟩
  | .hbm, ⟨5, _⟩ => ⟨S1024x8x8x1x3x4x4, .f32⟩
  | .hbm, ⟨6, _⟩ => ⟨S1024x64x48, .f32⟩
  | .hbm, ⟨7, _⟩ => ⟨S1024x64x48, .bf16⟩
  | .hbm, ⟨8, _⟩ => ⟨S48x768, .f32⟩
  | .hbm, ⟨9, _⟩ => ⟨S48x768, .bf16⟩
  | .hbm, ⟨10, _⟩ => ⟨S1x1x768, .f32⟩
  | .hbm, ⟨11, _⟩ => ⟨S1x768, .f32⟩
  | .hbm, ⟨12, _⟩ => ⟨S1x768, .f32⟩
  | .hbm, ⟨13, _⟩ => ⟨S1x64x768, .f32⟩
  | .hbm, ⟨14, _⟩ => ⟨S1024x65x768, .f32⟩
  | .local _ .vmem, ⟨0, _⟩ => ⟨S64x64x48, .bf16⟩
  | .local _ .vmem, ⟨1, _⟩ => ⟨S64x64x48, .bf16⟩
  | .local _ .vmem, ⟨2, _⟩ => ⟨S48x768, .bf16⟩
  | .local _ .vmem, ⟨3, _⟩ => ⟨S1x768, .f32⟩
  | .local _ .vmem, ⟨4, _⟩ => ⟨S1x64x768, .f32⟩
  | .local _ .vmem, ⟨5, _⟩ => ⟨S64x65x768, .f32⟩
  | .local _ .vmem, ⟨6, _⟩ => ⟨S64x65x768, .f32⟩
  | _, _ => ⟨S1024x1x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x65x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1x3x32x32_S1024x1x3x8x4x8x4 : S1024x1x3x32x32.ShapeCasts S1024x1x3x8x4x8x4
  transposes_S1024x1x3x8x4x8x4_S1024x8x8x1x3x4x4_0_3_5_1_2_4_6 : S1024x1x3x8x4x8x4.Transposes [0, 3, 5, 1, 2, 4, 6] S1024x8x8x1x3x4x4
  shapeCasts_S1024x8x8x1x3x4x4_S1024x64x48 : S1024x8x8x1x3x4x4.ShapeCasts S1024x64x48
  bitsLt_bf16_f32 : FTy.bits .bf16 < FTy.bits .f32
  transposes_S768x48_S48x768_1_0 : S768x48.Transposes [1, 0] S48x768
  slices_S1x65x768_S1x1x768_0_0_0 : S1x65x768.Slices ![0, 0, 0] S1x1x768
  shapeCasts_S1x1x768_S1x768 : S1x1x768.ShapeCasts S1x768
  slices_S1x65x768_S1x64x768_0_1_0 : S1x65x768.Slices ![0, 1, 0] S1x64x768
  inb_S48x768_S48x768_0_0 : ∀ a, (![0, 0] : Fin 2 → Nat) a + S48x768.size a ≤ S48x768.size a
  h_S48x768 : 0 < S48x768.numel
  shapeCasts_S48x768_S48x768 : S48x768.ShapeCasts S48x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x64x768_S1x64x768_0_0_0 : ∀ a, (![0, 0, 0] : Fin 3 → Nat) a + S1x64x768.size a ≤ S1x64x768.size a
  h_S1x64x768 : 0 < S1x64x768.numel
  shapeCasts_S1x64x768_S1x64x768 : S1x64x768.ShapeCasts S1x64x768
  inb_S64x64x48_S32x64x48_0_0_0 : ∀ a, (![0, 0, 0] : Fin 3 → Nat) a + S32x64x48.size a ≤ S64x64x48.size a
  h_S32x64x48 : 0 < S32x64x48.numel
  shapeCasts_S32x64x48_S32x64x48 : S32x64x48.ShapeCasts S32x64x48
  shapeCasts_S32x64x48_S2048x48 : S32x64x48.ShapeCasts S2048x48
  shapeCasts_S2048x768_S32x64x768 : S2048x768.ShapeCasts S32x64x768
  broadcasts_S1x64x768_S32x64x768 : S1x64x768.Broadcasts S32x64x768
  shapeCasts_S1x768_S1x1x768 : S1x768.ShapeCasts S1x1x768
  shapeCasts_S1x1x768_S1x1x768 : S1x1x768.ShapeCasts S1x1x768
  broadcasts_S1x1x768_S32x1x768 : S1x1x768.Broadcasts S32x1x768
  concatenates_S32x1x768_S32x64x768_S32x65x768_d1 : Shape.Concatenates [S32x1x768, S32x64x768] S32x65x768 1
  inb_S64x65x768_S32x65x768_0_0_0 : ∀ a, (![0, 0, 0] : Fin 3 → Nat) a + S32x65x768.size a ≤ S64x65x768.size a
  h_S32x65x768 : 0 < S32x65x768.numel
  inb_S64x64x48_S32x64x48_32_0_0 : ∀ a, (![32, 0, 0] : Fin 3 → Nat) a + S32x64x48.size a ≤ S64x64x48.size a
  inb_S64x65x768_S32x65x768_32_0_0 : ∀ a, (![32, 0, 0] : Fin 3 → Nat) a + S32x65x768.size a ≤ S64x65x768.size a
  dot_S2048x48_S48x768_S2048x768_1_0_0_1_n_n_wf : DotDims.WF S2048x48 S48x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x48.size a ≤ S1024x64x48.size a
  hwx0_0 : ∀ i : grid0.Coords, EltTy.bits .bf16 = 32 ∨ (Rect.block (s := S1024x64x48) S64x64x48.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x768.size a ≤ S48x768.size a
  hwx0_1 : ∀ i : grid0.Coords, EltTy.bits .bf16 = 32 ∨ (Rect.block (s := S48x768) S48x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x768.size a ≤ S1x64x768.size a
  hwx0_3 : ∀ i : grid0.Coords, EltTy.bits .f32 = 32 ∨ (Rect.block (s := S1x64x768) S1x64x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x65x768.size a ≤ S1024x65x768.size a
  hwx0_4 : ∀ i : grid0.Coords, EltTy.bits .f32 = 32 ∨ (Rect.block (s := S1024x65x768) S64x65x768.size (cc0_transform_4 i) (hinb0_4 i)).WholeWords (EltTy.packing .f32)

variable [Facts₀]

def dot_S2048x48_S48x768_S2048x768_1_0_0_1_n_n : DotDims S2048x48 S48x768 S2048x768 where
  lhsContracting := [1]
  rhsContracting := [0]
  lhsNonContracting := [0]
  rhsNonContracting := [1]
  lhsBatch := []
  rhsBatch := []
  wf := dot_S2048x48_S48x768_S2048x768_1_0_0_1_n_n_wf

abbrev win0_0 : Pipeline.Window sig grid0 :=
  Pipeline.Window.ofSpec (Memref.whole main_v3) S64x64x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S48x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x65x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S1024x1x3x8x4x8x4 : Shape := ⟨7, ![1024, 1, 3, 8, 4, 8, 4]⟩
abbrev S1024x8x8x1x3x4x4 : Shape := ⟨7, ![1024, 8, 8, 1, 3, 4, 4]⟩
abbrev S1024x64x48 : Shape := ⟨3, ![1024, 64, 48]⟩
abbrev S1024x64x768 : Shape := ⟨3, ![1024, 64, 768]⟩
abbrev S1x1x768 : Shape := ⟨3, ![1, 1, 768]⟩
abbrev S1024x1x768 : Shape := ⟨3, ![1024, 1, 768]⟩
abbrev S1024x65x768 : Shape := ⟨3, ![1024, 65, 768]⟩

abbrev nBuf : Space → Nat
  | .hbm => 13
  | .vmem => 0
  | .smem => 0
  | _ => 0

abbrev bufTy : (tb : Table) → Fin (tcTables nBuf tb) → BufTy
  | .hbm, ⟨0, _⟩ => ⟨S1024x1x3x32x32, .f32⟩
  | .hbm, ⟨1, _⟩ => ⟨S768x48, .f32⟩
  | .hbm, ⟨2, _⟩ => ⟨S1x768, .f32⟩
  | .hbm, ⟨3, _⟩ => ⟨S1x65x768, .f32⟩
  | .hbm, ⟨4, _⟩ => ⟨S1024x1x3x8x4x8x4, .f32⟩
  | .hbm, ⟨5, _⟩ => ⟨S1024x8x8x1x3x4x4, .f32⟩
  | .hbm, ⟨6, _⟩ => ⟨S1024x64x48, .f32⟩
  | .hbm, ⟨7, _⟩ => ⟨S1024x64x768, .f32⟩
  | .hbm, ⟨8, _⟩ => ⟨S1x1x768, .f32⟩
  | .hbm, ⟨9, _⟩ => ⟨S1024x1x768, .f32⟩
  | .hbm, ⟨10, _⟩ => ⟨S1024x65x768, .f32⟩
  | .hbm, ⟨11, _⟩ => ⟨S1024x65x768, .f32⟩
  | .hbm, ⟨12, _⟩ => ⟨S1024x65x768, .f32⟩
  | _, _ => ⟨S1024x1x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S1024x1x3x32x32_S1024x1x3x8x4x8x4 : S1024x1x3x32x32.ShapeCasts S1024x1x3x8x4x8x4
  transposes_S1024x1x3x8x4x8x4_S1024x8x8x1x3x4x4_0_3_5_1_2_4_6 : S1024x1x3x8x4x8x4.Transposes [0, 3, 5, 1, 2, 4, 6] S1024x8x8x1x3x4x4
  shapeCasts_S1024x8x8x1x3x4x4_S1024x64x48 : S1024x8x8x1x3x4x4.ShapeCasts S1024x64x48
  bcast_S1x768_S1x1x768_1_2 : S1x768.BroadcastsInDim S1x1x768 (![1, 2] : Fin 2 → Fin S1x1x768.rank)
  bcast_S1x1x768_S1024x1x768_0_1_2 : S1x1x768.BroadcastsInDim S1024x1x768 (![0, 1, 2] : Fin 3 → Fin S1024x1x768.rank)
  concatenates_S1024x1x768_S1024x64x768_S1024x65x768_d1 : Shape.Concatenates [S1024x1x768, S1024x64x768] S1024x65x768 1
  bcast_S1x65x768_S1024x65x768_0_1_2 : S1x65x768.BroadcastsInDim S1024x65x768 (![0, 1, 2] : Fin 3 → Fin S1024x65x768.rank)
  dot_S1024x64x48_S768x48_S1024x64x768_2_1_01_0_n_n_wf : DotDims.WF S1024x64x48 S768x48 S1024x64x768 [2] [1] [0, 1] [0] [] []

variable [Facts₀]

def dot_S1024x64x48_S768x48_S1024x64x768_2_1_01_0_n_n : DotDims S1024x64x48 S768x48 S1024x64x768 where
  lhsContracting := [2]
  rhsContracting := [1]
  lhsNonContracting := [0, 1]
  rhsNonContracting := [0]
  lhsBatch := []
  rhsBatch := []
  wf := dot_S1024x64x48_S768x48_S1024x64x768_2_1_01_0_n_n_wf

class Facts : Prop extends Facts₀ where

variable [Facts]
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.Slab.lean ====
/-
  The patch-embedding slab. For `B` images, each cut into 64 patches of 48 numbers, the result has 65 rows of 768
  numbers per image: row 0 is one fixed row (the class token with its position already added), and row `n + 1` is patch
  `n` times the `48 × 768` weight matrix plus row `n` of the patch positions,

      out b 0 e       = row0 e
      out b (n+1) e   = (∑ k, P b n k · Wt k e) + posp n e.

  Everything is over the extended reals, and nothing here needs finiteness: the only facts used are how the entries are
  indexed. An entry of image `b` reads only image `b`'s patches (`entry_congr`), so any run of images of the result is
  the slab of the same run of images of the patches.
-/
import Idealize.ShloMosaic.Lib.ValueIdx
import Idealize.ShloMosaic.PureOps.Ideal

noncomputable section

namespace Cert.PatchEmbed

open Idealize.ShloMosaic Idealize.ShloMosaic.ValueIdx

variable {B : ℕ}

/-- One entry of the slab, by coordinates: image `b`, row `j` of 65, column `e` of 768. -/
def entry (P : (⟨3, ![B, 64, 48]⟩ : Shape).Idx → EReal) (Wt : (⟨2, ![48, 768]⟩ : Shape).Idx → EReal)
    (row0 : (⟨2, ![1, 768]⟩ : Shape).Idx → EReal) (posp : (⟨3, ![1, 64, 768]⟩ : Shape).Idx → EReal)
    (b : Fin B) (j : Fin 65) (e : Fin 768) : EReal :=
  if h : j.val = 0 then row0 (ix2 (0 : Fin 1) e)
  else (∑ k : Fin 48, P (ix3 b (⟨j.val - 1, by omega⟩ : Fin 64) k) * Wt (ix2 k e))
    + posp (ix3 (0 : Fin 1) (⟨j.val - 1, by omega⟩ : Fin 64) e)

/-- The slab as an array `[B, 65, 768]`. -/
def slab (P : (⟨3, ![B, 64, 48]⟩ : Shape).Idx → EReal) (Wt : (⟨2, ![48, 768]⟩ : Shape).Idx → EReal)
    (row0 : (⟨2, ![1, 768]⟩ : Shape).Idx → EReal) (posp : (⟨3, ![1, 64, 768]⟩ : Shape).Idx → EReal) :
    (⟨3, ![B, 65, 768]⟩ : Shape).Idx → EReal := fun i =>
  entry P Wt row0 posp ⟨(i 0).val, (i 0).isLt⟩ ⟨(i 1).val, (i 1).isLt⟩ ⟨(i 2).val, (i 2).isLt⟩

theorem slab_apply (P : (⟨3, ![B, 64, 48]⟩ : Shape).Idx → EReal) (Wt : (⟨2, ![48, 768]⟩ : Shape).Idx → EReal)
    (row0 : (⟨2, ![1, 768]⟩ : Shape).Idx → EReal) (posp : (⟨3, ![1, 64, 768]⟩ : Shape).Idx → EReal)
    (b : Fin B) (j : Fin 65) (e : Fin 768) :
    slab P Wt row0 posp (ix3 b j e) = entry P Wt row0 posp b j e := rfl

/-- Row 0 of every image is the fixed row. -/
theorem entry_zero (P : (⟨3, ![B, 64, 48]⟩ : Shape).Idx → EReal) (Wt : (⟨2, ![48, 768]⟩ : Shape).Idx → EReal)
    (row0 : (⟨2, ![1, 768]⟩ : Shape).Idx → EReal) (posp : (⟨3, ![1, 64, 768]⟩ : Shape).Idx → EReal)
    (b : Fin B) (j : Fin 65) (e : Fin 768) (hj : j.val = 0) :
    entry P Wt row0 posp b j e = row0 (ix2 (0 : Fin 1) e) := by
  unfold entry; rw [dif_pos hj]

/-- Row `n + 1` is patch `n` through the weights, plus position row `n`. -/
theorem entry_succ (P : (⟨3, ![B, 64, 48]⟩ : Shape).Idx → EReal) (Wt : (⟨2, ![48, 768]⟩ : Shape).Idx → EReal)
    (row0 : (⟨2, ![1, 768]⟩ : Shape).Idx → EReal) (posp : (⟨3, ![1, 64, 768]⟩ : Shape).Idx → EReal)
    (b : Fin B) (j : Fin 65) (e : Fin 768) (n : Fin 64) (hj : j.val = n.val + 1) :
    entry P Wt row0 posp b j e = (∑ k : Fin 48, P (ix3 b n k) * Wt (ix2 k e)) + posp (ix3 (0 : Fin 1) n e) := by
  have hn : (⟨j.val - 1, by omega⟩ : Fin 64) = n := Fin.ext (by show j.val - 1 = n.val; omega)
  unfold entry; rw [dif_neg (by omega), hn]

/-- An entry of image `b` reads only image `b`'s patches: two patch arrays that agree on that image (whatever its
    number in each) give the same entry. -/
theorem entry_congr {B' : ℕ} (P : (⟨3, ![B, 64, 48]⟩ : Shape).Idx → EReal) (P' : (⟨3, ![B', 64, 48]⟩ : Shape).Idx → EReal)
    (Wt : (⟨2, ![48, 768]⟩ : Shape).Idx → EReal) (row0 : (⟨2, ![1, 768]⟩ : Shape).Idx → EReal)
    (posp : (⟨3, ![1, 64, 768]⟩ : Shape).Idx → EReal) (b : Fin B) (b' : Fin B') (j : Fin 65) (e : Fin 768)
    (hP : ∀ (n : Fin 64) (k : Fin 48), P' (ix3 b' n k) = P (ix3 b n k)) :
    entry P' Wt row0 posp b' j e = entry P Wt row0 posp b j e := by
  unfold entry
  split
  · rfl
  · simp only [hP]

end Cert.PatchEmbed

end
-- ==== Proof.Chunk.lean ====
/-
  One chunk of the kernel body, as a function of what it loads. The body works on 32 images at a time: it views the
  `[32, 64, 48]` patches as `[2048, 48]` rows, multiplies by the `[48, 768]` weights, views the product back as
  `[32, 64, 768]`, adds the patch positions repeated over the images, and puts the fixed row in front of each image's
  64 rows. Read at image `b`, row `j`, column `e` over the extended reals that is the slab's entry
  (`Cert.PatchEmbed.entry`): row `(b, n)` of the flat view is row-major position `64 b + n`, the matrix product is the
  sum over the 48 shared positions, and the two-piece join reads its first piece on row 0 and its second from row 1 on.
-/
import proofs.«179072_j33809982554293_2_alg».proof.Proof.Gen.KernelIdeal.Skeleton
import proofs.«179072_j33809982554293_2_alg».proof.Proof.LibContract0
import proofs.«179072_j33809982554293_2_alg».proof.Proof.Slab
import Idealize.ShloMosaic.Lib.Pipeline.Value
import Idealize.ShloMosaic.Lib.ValueIdx
import Idealize.ShloMosaic.Lib.ValueLayout

noncomputable section

namespace Cert.KernelIdeal.Chunk

open Cert.KernelIdeal Cert.KernelIdeal.Gen Idealize.ShloMosaic Idealize.ShloMosaic.ValueIdx Cert.PatchEmbed

/-- The product's dimension record: rows of the left operand against columns of the right, one shared axis of 48. -/
abbrev dd := dot_S2048x48_S48x768_S2048x768_1_0_0_1_n_n

theorem dd_l0 (j : S2048x768.Idx) (q : dd.contr.Idx) : (dd.lhsIdx j q 0).val = (j 0).val := by
  unfold DotDims.lhsIdx
  rw [dif_neg (show ¬(0 : Fin S2048x48.rank) ∈ dd.lhsBatch by decide),
    dif_pos (show (0 : Fin S2048x48.rank) ∈ dd.lhsNonContracting by decide)]
  rfl

theorem dd_l1 (j : S2048x768.Idx) (q : dd.contr.Idx) : (dd.lhsIdx j q 1).val = (q ⟨0, by decide⟩).val :=
  dd.lhsIdx_val_of_single rfl j q

theorem dd_r0 (j : S2048x768.Idx) (q : dd.contr.Idx) : (dd.rhsIdx j q 0).val = (q ⟨0, by decide⟩).val :=
  dd.rhsIdx_val_of_single rfl j q

theorem dd_r1 (j : S2048x768.Idx) (q : dd.contr.Idx) : (dd.rhsIdx j q 1).val = (j 1).val := by
  unfold DotDims.rhsIdx
  rw [dif_neg (show ¬(1 : Fin S48x768.rank) ∈ dd.rhsBatch by decide),
    dif_pos (show (1 : Fin S48x768.rank) ∈ dd.rhsNonContracting by decide)]
  rfl

/-- The product of the flat patch rows with the weights, read at flat row `64 b + n` and column `e`. -/
theorem product_apply (w : FVec Ideal S48x768 .bf16) (p : FVec Ideal S32x64x48 .bf16) (b : Fin 32) (n : Fin 64) (e : Fin 768)
    (h1 : S32x64x48.ShapeCasts S2048x48) (h2 : S2048x768.ShapeCasts S32x64x768) :
    shapeCast S32x64x768 (matmul dd none (shapeCast S2048x48 p h1) w (constant (F := Ideal) S2048x768 .f32 0x00000000#32)) h2
      (ix3 b n e) = ∑ k : Fin 48, p (ix3 b n k) * w (ix2 k e) := by
  have hr : b.val * 64 + n.val < 2048 := by omega
  refine (shapeCast_apply _ h2 (ix3 b n e) (ix2 (⟨b.val * 64 + n.val, hr⟩ : Fin 2048) e) (by
    rw [Shape.rowMajor_val_two, Shape.rowMajor_val_three]; rfl)).trans ?_
  refine (Cert.Contract0.matmul_rows dd rfl rfl dd_l0 dd_l1 dd_r0 dd_r1 (shapeCast S2048x48 p h1) w _ e).trans ?_
  refine Finset.sum_congr rfl fun k _ => congrArg (· * w (ix2 k e)) ?_
  exact shapeCast_apply p h1 (ix2 (⟨b.val * 64 + n.val, hr⟩ : Fin 2048) k) (ix3 b n k) (by
    rw [Shape.rowMajor_val_two, Shape.rowMajor_val_three]; rfl)

/-- The first chunk's stored value at image `b`, row `j`, column `e` is the slab's entry over the chunk's patches. -/
theorem pay4_apply (v0 : Vec Ideal S48x768 .bf16) (v2 : Vec Ideal S1x768 .f32) (v4 : Vec Ideal S1x64x768 .f32)
    (v6 : Vec Ideal S32x64x48 .bf16) (b : Fin 32) (j : Fin 65) (e : Fin 768) :
    k0_pay4 (F := Ideal) v0 v2 v4 v6 (ix3 b j e) = entry v6 v0 v2 v4 b j e := by
  unfold k0_pay4 k0_pay1 k0_pay2 k0_pay3
  simp only [shapeCast_self]
  by_cases hj : j.val = 0
  · rw [entry_zero _ _ _ _ b j e hj]
    refine (concatenate_pair_apply_left (t := S32x65x768) (s₁ := S32x1x768) (s₂ := S32x64x768) 1 _ _ concatenates_S32x1x768_S32x64x768_S32x65x768_d1 (ix3 b j e) rfl
      (ix3 b (0 : Fin 1) e) (fun a => match a with
        | ⟨0, _⟩ => rfl
        | ⟨1, _⟩ => hj.symm
        | ⟨2, _⟩ => rfl)).trans ?_
    refine (broadcastTo_apply _ broadcasts_S1x1x768_S32x1x768 (ix3 b (0 : Fin 1) e) (ix3 (0 : Fin 1) (0 : Fin 1) e) (fun a => match a with
        | ⟨0, _⟩ => by show 0 = if (1 : Nat) = 1 then 0 else b.val; rw [if_pos rfl]
        | ⟨1, _⟩ => by show 0 = if (1 : Nat) = 1 then 0 else 0; rw [if_pos rfl]
        | ⟨2, _⟩ => by show e.val = if (768 : Nat) = 1 then 0 else e.val; rw [if_neg (by decide)])).trans ?_
    exact shapeCast_ab_1ab_apply v2 shapeCasts_S1x768_S1x1x768 (0 : Fin 1) (0 : Fin 1) e
  · have hn : j.val - 1 < 64 := by omega
    rw [entry_succ _ _ _ _ b j e ⟨j.val - 1, hn⟩ (by show j.val = j.val - 1 + 1; omega)]
    refine (concatenate_pair_apply_right (t := S32x65x768) (s₁ := S32x1x768) (s₂ := S32x64x768) 1 _ _ concatenates_S32x1x768_S32x64x768_S32x65x768_d1 (ix3 b j e) rfl rfl
      (ix3 b (⟨j.val - 1, hn⟩ : Fin 64) e) (fun a => match a with
        | ⟨0, _⟩ => fun _ => rfl
        | ⟨1, _⟩ => fun h => absurd rfl h
        | ⟨2, _⟩ => fun _ => rfl)
      (by show j.val - 1 + 1 = j.val; omega)).trans ?_
    show _ + _ = _
    refine congrArg₂ (· + ·) (product_apply v0 v6 b ⟨j.val - 1, hn⟩ e _ _) ?_
    exact broadcastTo_apply _ broadcasts_S1x64x768_S32x64x768 (ix3 b (⟨j.val - 1, hn⟩ : Fin 64) e)
      (ix3 (0 : Fin 1) (⟨j.val - 1, hn⟩ : Fin 64) e) (fun a => match a with
        | ⟨0, _⟩ => by show 0 = if (1 : Nat) = 1 then 0 else b.val; rw [if_pos rfl]
        | ⟨1, _⟩ => by show j.val - 1 = if (64 : Nat) = 1 then 0 else j.val - 1; rw [if_neg (by decide)]
        | ⟨2, _⟩ => by show e.val = if (768 : Nat) = 1 then 0 else e.val; rw [if_neg (by decide)])

/-- The second chunk's stored value is the same function of what it loads. -/
theorem pay5_eq (v0 : Vec Ideal S48x768 .bf16) (v2 : Vec Ideal S1x768 .f32) (v4 : Vec Ideal S1x64x768 .f32)
    (v6 : Vec Ideal S32x64x48 .bf16) : k0_pay5 (F := Ideal) v0 v2 v4 v6 = k0_pay4 (F := Ideal) v0 v2 v4 v6 := rfl

end Cert.KernelIdeal.Chunk

end
-- ==== Proof.Block.lean ====
/-
  What the kernel body leaves in the output block at one grid point, as one function of the four blocks it reads: the
  slab (`Cert.PatchEmbed.slab`) of the point's 64 images. The body writes the block in two stores of 32 images each,
  images 0 to 31 from patch images 0 to 31 and images 32 to 63 from patch images 32 to 63; each store's value is the
  slab's entry over its own 32 patch images (Chunk.lean), and an entry of an image reads only that image's patches, so
  both stores are pieces of the one slab over all 64.
-/
import proofs.«179072_j33809982554293_2_alg».proof.Proof.Gen.KernelIdeal.Frame
import proofs.«179072_j33809982554293_2_alg».proof.Proof.Chunk
import proofs.«179072_j33809982554293_2_alg».proof.Proof.Slab
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.PatchEmbed

theorem hz2 : (![0, 0] : Fin 2 → Nat) = fun _ => 0 := funext fun a => by fin_cases a <;> rfl
theorem hz3 : (![0, 0, 0] : Fin 3 → Nat) = fun _ => 0 := funext fun a => by fin_cases a <;> rfl

/-- The first store (images 0 to 31): its value is the slab over all 64 images at the stored position. -/
theorem piece_lo (x0 : Vec Ideal S64x64x48 .bf16) (x1 : Vec Ideal S48x768 .bf16) (x2 : Vec Ideal S1x768 .f32)
    (x3 : Vec Ideal S1x64x768 .f32) (x : S32x65x768.Idx) :
    k0_pay4 (F := Ideal) (View.ld x1 r0_0) (View.ld x2 r0_1) (View.ld x3 r0_2) (View.ld x0 r0_3) x
      = slab (B := 64) x0 x1 x2 x3 (r0_4.emb x) := by
  obtain ⟨b, j, e, rfl⟩ : ∃ (b : Fin 32) (j : Fin 65) (e : Fin 768), x = ix3 b j e := ⟨x 0, x 1, x 2, eq_ix3 x⟩
  have hb : b.val < 64 := by omega
  have hemb : r0_4.emb (ix3 b j e) = ix3 (⟨b.val, hb⟩ : Fin 64) j e := funext fun a => Fin.ext (by
    match a with
    | ⟨0, _⟩ => show 0 + 1 * b.val = b.val; omega
    | ⟨1, _⟩ => show 0 + 1 * j.val = j.val; omega
    | ⟨2, _⟩ => show 0 + 1 * e.val = e.val; omega)
  rw [hemb, slab_apply, Chunk.pay4_apply, View.ld_unit_zero hz2 _ x1, View.ld_unit_zero hz2 _ x2,
    View.ld_unit_zero hz3 _ x3]
  refine entry_congr (B := 64) (B' := 32) x0 (View.ld x0 r0_3) x1 x2 x3 ⟨b.val, hb⟩ b j e fun n k => ?_
  show x0 (r0_3.emb (ix3 b n k)) = x0 (ix3 (⟨b.val, hb⟩ : Fin 64) n k)
  refine congrArg x0 (funext fun a => Fin.ext ?_)
  match a with
  | ⟨0, _⟩ => show 0 + 1 * b.val = b.val; omega
  | ⟨1, _⟩ => show 0 + 1 * n.val = n.val; omega
  | ⟨2, _⟩ => show 0 + 1 * k.val = k.val; omega

/-- The second store (images 32 to 63), likewise. -/
theorem piece_hi (x0 : Vec Ideal S64x64x48 .bf16) (x1 : Vec Ideal S48x768 .bf16) (x2 : Vec Ideal S1x768 .f32)
    (x3 : Vec Ideal S1x64x768 .f32) (x : S32x65x768.Idx) :
    k0_pay5 (F := Ideal) (View.ld x1 r0_0) (View.ld x2 r0_1) (View.ld x3 r0_2) (View.ld x0 r0_5) x
      = slab (B := 64) x0 x1 x2 x3 (r0_6.emb x) := by
  obtain ⟨b, j, e, rfl⟩ : ∃ (b : Fin 32) (j : Fin 65) (e : Fin 768), x = ix3 b j e := ⟨x 0, x 1, x 2, eq_ix3 x⟩
  have hb : 32 + b.val < 64 := by omega
  have hemb : r0_6.emb (ix3 b j e) = ix3 (⟨32 + b.val, hb⟩ : Fin 64) j e := funext fun a => Fin.ext (by
    match a with
    | ⟨0, _⟩ => show 32 + 1 * b.val = 32 + b.val; omega
    | ⟨1, _⟩ => show 0 + 1 * j.val = j.val; omega
    | ⟨2, _⟩ => show 0 + 1 * e.val = e.val; omega)
  rw [hemb, slab_apply, Chunk.pay5_eq, Chunk.pay4_apply, View.ld_unit_zero hz2 _ x1, View.ld_unit_zero hz2 _ x2,
    View.ld_unit_zero hz3 _ x3]
  refine entry_congr (B := 64) (B' := 32) x0 (View.ld x0 r0_5) x1 x2 x3 ⟨32 + b.val, hb⟩ b j e fun n k => ?_
  show x0 (r0_5.emb (ix3 b n k)) = x0 (ix3 (⟨32 + b.val, hb⟩ : Fin 64) n k)
  refine congrArg x0 (funext fun a => Fin.ext ?_)
  match a with
  | ⟨0, _⟩ => show 32 + 1 * b.val = 32 + b.val; omega
  | ⟨1, _⟩ => show 0 + 1 * n.val = n.val; omega
  | ⟨2, _⟩ => show 0 + 1 * k.val = k.val; omega

/-- After the body the output block is the slab of the point's four input blocks. -/
theorem out_eq (x0 : Vec Ideal S64x64x48 .bf16) (x1 : Vec Ideal S48x768 .bf16) (x2 : Vec Ideal S1x768 .f32)
    (x3 : Vec Ideal S1x64x768 .f32) : out0_4 (F := Ideal) x0 x1 x2 x3 = slab (B := 64) x0 x1 x2 x3 := by
  funext y
  unfold out0_4
  refine View.canon_apply_of_pieces (Val := Elt Ideal) (S := S64x65x768) (e := .f32) (slab (B := 64) x0 x1 x2 x3) _ ?_ y (cover0_4 _ _ y)
  intro p hp x
  rcases List.mem_cons.mp hp with rfl | hp
  · exact piece_hi x0 x1 x2 x3 x
  · obtain rfl := List.mem_singleton.mp hp
    exact piece_lo x0 x1 x2 x3 x

end Cert.KernelIdeal.Block

end
-- ==== Proof.Final.lean ====
/-
  The kernel's result array after the run, as one function of its four operand arrays as the region finds them: the
  slab over all 1024 images. Grid point `t` of 16 reads patch images `64 t … 64 t + 63` and the whole of the other
  three operands, and writes back images `64 t … 64 t + 63` of the result; what it writes is the slab of what it read
  (Block.lean), an entry of an image reads only that image's patches, and the 16 blocks cover the array.
-/
import proofs.«179072_j33809982554293_2_alg».proof.Proof.Gen.KernelIdeal.Value
import proofs.«179072_j33809982554293_2_alg».proof.Proof.Block
import proofs.«179072_j33809982554293_2_alg».proof.Proof.Slab
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.ValueIdx Cert.PatchEmbed
open Idealize.ShloMosaic.Pipeline (Dat)

variable (m : (ℓ : Loc nD τ sig) → Buf (Elt Ideal) ℓ) (ρ : Dev nD → PrngReg)

/-- The whole result: the slab over all 1024 images of the four operand arrays at region entry. -/
abbrev whole (c : Dev nD) : S1024x65x768.Idx → EReal :=
  slab (B := 1024) (V m c main_v3) (V m c main_v5) (V m c main_v8) (V m c main_v9)

/-- The printed index maps over the 16 grid points: the patches and the result move one block of 64 images per point,
    the other three operands stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The patch block at point `t` is patch images `64 t … 64 t + 63`. -/
theorem patches_block (c : Dev nD) (t : Fin cfg0.N) (x : S64x64x48.Idx) (k : S1024x64x48.Idx)
    (h0 : (k 0).val = t.val * 64 + (x 0).val) (h1 : (k 1).val = (x 1).val) (h2 : (k 2).val = (x 2).val) :
    (iblk m c 0 t : Vec Ideal S64x64x48 .bf16) x = (V m c main_v3 : S1024x64x48.Idx → EReal) k := by
  obtain ⟨e0, e1, e2, -⟩ := idx_facts t
  unfold iblk
  rw [View.read_apply]
  show V m c main_v3 _ = V m c main_v3 _
  refine congrArg _ (funext fun a => Fin.ext ?_)
  match a with
  | ⟨0, _⟩ => show win0_0.index t (0 : Fin 3) * 64 + 1 * (x 0).val = (k 0).val; rw [e0, h0]; omega
  | ⟨1, _⟩ => show win0_0.index t (1 : Fin 3) * 64 + 1 * (x 1).val = (k 1).val; rw [e1, h1]; omega
  | ⟨2, _⟩ => show win0_0.index t (2 : Fin 3) * 48 + 1 * (x 2).val = (k 2).val; rw [e2, h2]; omega

/-- The weights' block at every point is the whole array. -/
theorem weights_block (c : Dev nD) (t : Fin cfg0.N) : (iblk m c 1 t : Vec Ideal S48x768 .bf16) = V m c main_v5 := by
  obtain ⟨-, -, -, e0, e1, -⟩ := idx_facts t
  funext x
  unfold iblk
  rw [View.read_apply]
  show V m c main_v5 _ = V m c main_v5 x
  refine congrArg _ (funext fun a => Fin.ext ?_)
  match a with
  | ⟨0, _⟩ => show win0_1.index t (0 : Fin 2) * 48 + 1 * (x 0).val = (x 0).val; rw [e0]; omega
  | ⟨1, _⟩ => show win0_1.index t (1 : Fin 2) * 768 + 1 * (x 1).val = (x 1).val; rw [e1]; omega

/-- The fixed row's block at every point is the whole array. -/
theorem row0_block (c : Dev nD) (t : Fin cfg0.N) : (iblk m c 2 t : Vec Ideal S1x768 .f32) = V m c main_v8 := by
  obtain ⟨-, -, -, -, -, e0, e1, -⟩ := idx_facts t
  funext x
  unfold iblk
  rw [View.read_apply]
  show V m c main_v8 _ = V m c main_v8 x
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 768 + 1 * (x 1).val = (x 1).val; rw [e1]; omega

/-- The patch positions' block at every point is the whole array. -/
theorem positions_block (c : Dev nD) (t : Fin cfg0.N) : (iblk m c 3 t : Vec Ideal S1x64x768 .f32) = V m c main_v9 := by
  obtain ⟨-, -, -, -, -, -, -, e0, e1, e2, -⟩ := idx_facts t
  funext x
  unfold iblk
  rw [View.read_apply]
  show V m c main_v9 _ = V m c main_v9 x
  refine congrArg _ (funext fun a => Fin.ext ?_)
  match a with
  | ⟨0, _⟩ => show win0_3.index t (0 : Fin 3) * 1 + 1 * (x 0).val = (x 0).val; rw [e0]; omega
  | ⟨1, _⟩ => show win0_3.index t (1 : Fin 3) * 64 + 1 * (x 1).val = (x 1).val; rw [e1]; omega
  | ⟨2, _⟩ => show win0_3.index t (2 : Fin 3) * 768 + 1 * (x 2).val = (x 2).val; rw [e2]; omega

/-- The slab of point `t`'s 64 patch images, at image `y 0` of the block, is the whole slab at image `64 t + y 0`. -/
theorem block_entry (c : Dev nD) (t : Fin cfg0.N) (y : S64x65x768.Idx) (i : S1024x65x768.Idx)
    (h0 : (i 0).val = t.val * 64 + (y 0).val) (h1 : (i 1).val = (y 1).val) (h2 : (i 2).val = (y 2).val) :
    slab (B := 64) (iblk m c 0 t) (V m c main_v5) (V m c main_v8) (V m c main_v9) y = whole m c i := by
  obtain ⟨b, j, e, rfl⟩ : ∃ (b : Fin 64) (j : Fin 65) (e : Fin 768), y = ix3 b j e := ⟨y 0, y 1, y 2, eq_ix3 y⟩
  obtain ⟨b', j', e', rfl⟩ : ∃ (b' : Fin 1024) (j' : Fin 65) (e' : Fin 768), i = ix3 b' j' e' := ⟨i 0, i 1, i 2, eq_ix3 i⟩
  have hj : j' = j := Fin.ext h1
  have he : e' = e := Fin.ext h2
  subst hj he
  show entry (B := 64) (iblk m c 0 t) (V m c main_v5) (V m c main_v8) (V m c main_v9) b j' e'
    = entry (B := 1024) (V m c main_v3) (V m c main_v5) (V m c main_v8) (V m c main_v9) b' j' e'
  exact entry_congr (B := 1024) (B' := 64) (V m c main_v3) (iblk m c 0 t) _ _ _ b' b j' e' fun n k =>
    patches_block m c t (ix3 b n k) (ix3 b' n k) h0 rfl rfl

/-- What point `t` writes back is block `t` of the whole slab. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  have hout := Block.out_eq (iblk m c 0 t) (iblk m c 1 t) (iblk m c 2 t) (iblk m c 3 t)
  rw [hout, weights_block m c t, row0_block m c t, positions_block m c t]
  obtain ⟨-, -, -, -, -, -, -, -, -, -, e0, e1, e2⟩ := idx_facts t
  funext y
  show slab (B := 64) (iblk m c 0 t) (V m c main_v5) (V m c main_v8) (V m c main_v9) y
    = whole m c (((cfg0.win 4).blk t).view.emb y)
  refine block_entry m c t y _ ?_ ?_ ?_
  · show win0_4.index t (0 : Fin 3) * 64 + 1 * (y 0).val = t.val * 64 + (y 0).val; rw [e0]; omega
  · show win0_4.index t (1 : Fin 3) * 65 + 1 * (y 1).val = (y 1).val; rw [e1]; omega
  · show win0_4.index t (2 : Fin 3) * 768 + 1 * (y 2).val = (y 2).val; rw [e2]; omega

/-- An index of the result is in point `t`'s block iff each coordinate is in the block's range on its axis. -/
theorem mem_blk (t : Fin cfg0.N) (i : S1024x65x768.Idx) :
    i ∈ ((cfg0.win 4).blk t).view.set ↔ ∀ a : Fin 3, win0_4.index t a * S64x65x768.size a ≤ (i a).val
      ∧ (i a).val < win0_4.index t a * S64x65x768.size a + S64x65x768.size a := by
  show i ∈ ((View.whole main_v10).slice (win0_4.rect t)).set ↔ _
  rw [View.set_slice_whole, Rect.mem_set_unit]
  exact Iff.rfl

/-- Every block of 64 images is some point's. -/
theorem idx_onto : ∀ q : Fin 16, ∃ t : Fin cfg0.N, win0_4.index t = ![q.val, 0, 0] :=
  (by decide +kernel : ∀ q : Fin 16, ∃ t : Fin grid0.N, win0_4.index t = ![q.val, 0, 0])

/-- The 16 blocks cover the result: image `b` is in the block of point `b / 64`. -/
theorem cover (i : S1024x65x768.Idx) :
    ∃ t : Fin cfg0.N, (cfg0.win 4).flush t = true ∧ i ∈ ((cfg0.win 4).blk t).view.set := by
  have hi0 : (i 0).val < 1024 := (i 0).isLt
  have hi1 : (i 1).val < 65 := (i 1).isLt
  have hi2 : (i 2).val < 768 := (i 2).isLt
  obtain ⟨t, ht⟩ := idx_onto ⟨(i 0).val / 64, by omega⟩
  have q0 : win0_4.index t (0 : Fin 3) = (i 0).val / 64 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 65 ≤ (i 1).val ∧ (i 1).val < win0_4.index t (1 : Fin 3) * 65 + 65; omega
  | ⟨2, _⟩ => show win0_4.index t (2 : Fin 3) * 768 ≤ (i 2).val ∧ (i 2).val < win0_4.index t (2 : Fin 3) * 768 + 768; omega

/-- The result array after the run is the whole slab. -/
theorem final (c : Dev nD) : (dats m 0 c).arrAt 4 cfg0.N = whole m c :=
  (dats m 0 c).arrAt_eq_of_cover 4 (whole m c) (fun t _ => flushed_eq m c t) cover

/-- The kernel's run: the result array at the whole slab, the arguments unchanged. -/
theorem run : θ_run defs (onTc (τ := τ) (main (F := Ideal))) ⟨m, fun _ => 0, ρ⟩ fun r => ∀ c : Dev nD,
      r.2.mem ((c : Thread nD τ).loc main_v10) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Final

end
-- ==== Proof.Entry.lean ====
/-
  What the kernel's four operands hold when the region is entered, as functions of the program's arguments. Before the
  call the program cuts every image into its 64 patches (a reshape, a transpose and a reshape: `patches`), transposes the
  weights, adds row 0 of the positions to the class token, and slices rows 1 to 64 of the positions. Over the extended
  reals the two changes of float format are the identity. Entry by entry:

      weights (k, e)      = W (e, k)
      fixed row (0, e)    = cls (0, e) + pos (0, 0, e)
      positions (0, n, e) = pos (0, n + 1, e)
-/
import proofs.«179072_j33809982554293_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The program's four arguments on core `c`, as arrays of extended reals: the images, the weights `[768, 48]`, the
    class token `[1, 768]` and the positions `[1, 65, 768]`. -/
abbrev argX (c : Dev nD) : S1024x1x3x32x32.Idx → EReal := m ((c : Thread nD τ).loc main_arg0)
abbrev argW (c : Dev nD) : S768x48.Idx → EReal := m ((c : Thread nD τ).loc main_arg1)
abbrev argCls (c : Dev nD) : S1x768.Idx → EReal := m ((c : Thread nD τ).loc main_arg2)
abbrev argPos (c : Dev nD) : S1x65x768.Idx → EReal := m ((c : Thread nD τ).loc main_arg3)

/-- The images cut into patches: image `b`, patch `n` of 64, entry `k` of 48 — the host's reshape, transpose, reshape. -/
def patches (x : Vec Ideal S1024x1x3x32x32 .f32) : Vec Ideal S1024x64x48 .f32 :=
  shapeCast S1024x64x48
    (transpose S1024x8x8x1x3x4x4 [0, 3, 5, 1, 2, 4, 6]
      (shapeCast S1024x1x3x8x4x8x4 x Facts₀.shapeCasts_S1024x1x3x32x32_S1024x1x3x8x4x8x4)
      Facts₀.transposes_S1024x1x3x8x4x8x4_S1024x8x8x1x3x4x4_0_3_5_1_2_4_6)
    Facts₀.shapeCasts_S1024x8x8x1x3x4x4_S1024x64x48

/-- The first operand is the patches (the change of format is the identity over the extended reals). -/
theorem patches_entry (c : Dev nD) :
    (V m c main_v3 : S1024x64x48.Idx → EReal) = patches (argX m c) := by
  dsimp only [Gen.V, Gen.hostOps0]; after_results <;> rfl

/-- The second operand is the weights transposed. -/
theorem weights_entry (c : Dev nD) :
    (V m c main_v5 : S48x768.Idx → EReal)
      = transpose (s := S768x48) (α := EReal) S48x768 [1, 0] (argW m c) Facts₀.transposes_S768x48_S48x768_1_0 := by
  dsimp only [Gen.V, Gen.hostOps0]; after_results <;> rfl

/-- The third operand is the class token plus row 0 of the positions. -/
theorem row0_entry (c : Dev nD) :
    (V m c main_v8 : S1x768.Idx → EReal)
      = addf (F := Ideal) (s := S1x768) (φ := .f32) (argCls m c)
          (shapeCast (α := EReal) S1x768 (extractStridedSlice (s := S1x65x768) (α := EReal) S1x1x768 ![0, 0, 0] (argPos m c)
            Facts₀.slices_S1x65x768_S1x1x768_0_0_0) Facts₀.shapeCasts_S1x1x768_S1x768) := by
  dsimp only [Gen.V, Gen.hostOps0]; after_results <;> rfl

/-- The fourth operand is rows 1 to 64 of the positions. -/
theorem positions_entry (c : Dev nD) :
    (V m c main_v9 : S1x64x768.Idx → EReal)
      = extractStridedSlice (s := S1x65x768) (α := EReal) S1x64x768 ![0, 1, 0] (argPos m c)
          Facts₀.slices_S1x65x768_S1x64x768_0_1_0 := by
  dsimp only [Gen.V, Gen.hostOps0]; after_results <;> rfl

theorem weights_apply (c : Dev nD) (k : Fin 48) (e : Fin 768) :
    (V m c main_v5 : S48x768.Idx → EReal) (ix2 k e) = argW m c (ix2 e k) := by
  rw [weights_entry]
  exact transpose_ix2_apply _ _ k e

theorem row0_apply (c : Dev nD) (e : Fin 768) :
    (V m c main_v8 : S1x768.Idx → EReal) (ix2 (0 : Fin 1) e)
      = argCls m c (ix2 (0 : Fin 1) e)
        + argPos m c (ix3 (0 : Fin 1) (0 : Fin 65) e) := by
  rw [row0_entry]
  show _ + _ = _
  refine congrArg (_ + ·) ?_
  refine (shapeCast_1ab_ab_apply _ _ (0 : Fin 1) e).trans ?_
  exact extractStridedSlice_apply _ _ _ _ (ix3 (0 : Fin 1) (0 : Fin 65) e) (fun a => match a with
    | ⟨0, _⟩ => rfl
    | ⟨1, _⟩ => rfl
    | ⟨2, _⟩ => by show e.val = 0 + e.val; omega)

theorem positions_apply (c : Dev nD) (n : Fin 64) (e : Fin 768) :
    (V m c main_v9 : S1x64x768.Idx → EReal) (ix3 (0 : Fin 1) n e)
      = argPos m c (ix3 (0 : Fin 1) (⟨n.val + 1, by omega⟩ : Fin 65) e) := by
  rw [positions_entry]
  exact extractStridedSlice_apply _ _ _ _ (ix3 (0 : Fin 1) (⟨n.val + 1, by omega⟩ : Fin 65) e) (fun a => match a with
    | ⟨0, _⟩ => rfl
    | ⟨1, _⟩ => by show n.val + 1 = 1 + n.val; omega
    | ⟨2, _⟩ => by show e.val = 0 + e.val; omega)

end Cert.KernelIdeal.Entry

end
-- ==== Proof.RefSlab.lean ====
/-
  The reference's result, entry by entry, is the slab. The reference multiplies the patches by the weights as stored
  (`[768, 48]`, contracting the 48), puts the class token in front of each image's 64 product rows, and adds the
  positions repeated over the images:

      ref b 0 e       = pos 0 e + cls e
      ref b (n+1) e   = pos (n+1) e + ∑ k, P b n k · W e k.

  Against the slab's `row0 e` and `(∑ k, P b n k · Wt k e) + posp n e` this is commutativity of addition on the extended
  reals, given `Wt k e = W e k`, `row0 e = cls e + pos 0 e` and `posp n e = pos (n+1) e` — which is how the kernel's
  program prepares its operands. No finiteness is needed.
-/
import proofs.«179072_j33809982554293_2_alg».proof.Proof.Gen.ReferenceIdeal.Read
import proofs.«179072_j33809982554293_2_alg».proof.Proof.Slab
import Idealize.ShloMosaic.Lib.Pipeline.Value
import Idealize.ShloMosaic.Lib.ValueIdx

noncomputable section

namespace Cert.ReferenceIdeal.RefSlab

open Cert.ReferenceIdeal Cert.ReferenceIdeal.Read Idealize.ShloMosaic Idealize.ShloMosaic.ValueIdx Cert.PatchEmbed

/-- Row 0 of the joined array is the class token. -/
theorem joined_zero (x0 : S1024x1x3x32x32.Idx → EReal) (x1 : S768x48.Idx → EReal) (x2 : S1x768.Idx → EReal)
    (b : Fin 1024) (j : Fin 65) (e : Fin 768) (hj : j.val = 0) :
    val_main_v6 (F := Ideal) x0 x1 x2 (ix3 b j e) = x2 (ix2 (0 : Fin 1) e) := by
  unfold val_main_v6
  refine (concatenate_pair_apply_left (t := S1024x65x768) (s₁ := S1024x1x768) (s₂ := S1024x64x768) 1 _ _
    Facts₀.concatenates_S1024x1x768_S1024x64x768_S1024x65x768_d1 (ix3 b j e) rfl (ix3 b (0 : Fin 1) e) (fun a => match a with
      | ⟨0, _⟩ => rfl
      | ⟨1, _⟩ => hj.symm
      | ⟨2, _⟩ => rfl)).trans ?_
  rw [val_main_v5_apply, val_main_v4_apply]
  exact congrArg x2 (funext fun a => Fin.ext (by
    match a with
    | ⟨0, _⟩ => rfl
    | ⟨1, _⟩ => rfl))

/-- Row `n + 1` of the joined array is patch `n` against the weights. -/
theorem joined_succ (x0 : S1024x1x3x32x32.Idx → EReal) (x1 : S768x48.Idx → EReal) (x2 : S1x768.Idx → EReal)
    (b : Fin 1024) (j : Fin 65) (e : Fin 768) (n : Fin 64) (hj : j.val = n.val + 1) :
    val_main_v6 (F := Ideal) x0 x1 x2 (ix3 b j e)
      = ∑ k : Fin 48, val_main_v2 (F := Ideal) x0 (ix3 b n k) * x1 (ix2 e k) := by
  unfold val_main_v6
  refine (concatenate_pair_apply_right (t := S1024x65x768) (s₁ := S1024x1x768) (s₂ := S1024x64x768) 1 _ _
    Facts₀.concatenates_S1024x1x768_S1024x64x768_S1024x65x768_d1 (ix3 b j e) rfl rfl (ix3 b n e) (fun a => match a with
      | ⟨0, _⟩ => fun _ => rfl
      | ⟨1, _⟩ => fun h => absurd rfl h
      | ⟨2, _⟩ => fun _ => rfl)
    (by show n.val + 1 = j.val; omega)).trans ?_
  rw [val_main_v3_apply]
  refine Finset.sum_congr rfl fun k _ => ?_
  have el : lidx_main_v3 (ix3 b n e) k = ix3 b n k := funext fun a => Fin.ext (by
    match a with
    | ⟨0, _⟩ => rfl
    | ⟨1, _⟩ => rfl
    | ⟨2, _⟩ => rfl)
  have er : ridx_main_v3 (ix3 b n e) k = ix2 e k := funext fun a => Fin.ext (by
    match a with
    | ⟨0, _⟩ => rfl
    | ⟨1, _⟩ => rfl)
  rw [el, er]

/-- The reference's result is the slab of its own patches and of any weights, fixed row and patch positions that are,
    entry by entry, the transposed weights, the class token plus position row 0, and position rows 1 to 64. -/
theorem result_eq (x0 : S1024x1x3x32x32.Idx → EReal) (x1 : S768x48.Idx → EReal) (x2 : S1x768.Idx → EReal)
    (x3 : S1x65x768.Idx → EReal)
    (Wt : (⟨2, ![48, 768]⟩ : Shape).Idx → EReal) (row0 : (⟨2, ![1, 768]⟩ : Shape).Idx → EReal)
    (posp : (⟨3, ![1, 64, 768]⟩ : Shape).Idx → EReal)
    (hW : ∀ (k : Fin 48) (e : Fin 768), Wt (ix2 k e) = x1 (ix2 e k))
    (hrow : ∀ e : Fin 768, row0 (ix2 (0 : Fin 1) e) = x2 (ix2 (0 : Fin 1) e) + x3 (ix3 (0 : Fin 1) (0 : Fin 65) e))
    (hpos : ∀ (n : Fin 64) (e : Fin 768),
      posp (ix3 (0 : Fin 1) n e) = x3 (ix3 (0 : Fin 1) (⟨n.val + 1, by omega⟩ : Fin 65) e)) :
    val_main_v8 (F := Ideal) x0 x1 x2 x3 = slab (B := 1024) (val_main_v2 (F := Ideal) x0) Wt row0 posp := by
  funext i
  obtain ⟨b, j, e, rfl⟩ : ∃ (b : Fin 1024) (j : Fin 65) (e : Fin 768), i = ix3 b j e := ⟨i 0, i 1, i 2, eq_ix3 i⟩
  rw [slab_apply, val_main_v8_apply, val_main_v7_apply]
  have e7 : idx_main_v7 (ix3 b j e) = ix3 (0 : Fin 1) j e := funext fun a => Fin.ext (by
    match a with
    | ⟨0, _⟩ => rfl
    | ⟨1, _⟩ => rfl
    | ⟨2, _⟩ => rfl)
  rw [e7]
  show x3 (ix3 (0 : Fin 1) j e) + val_main_v6 (F := Ideal) x0 x1 x2 (ix3 b j e) = _
  by_cases hj : j.val = 0
  · have hj0 : j = (0 : Fin 65) := Fin.ext hj
    rw [entry_zero _ _ _ _ b j e hj, hrow, joined_zero x0 x1 x2 b j e hj, hj0]
    exact add_comm _ _
  · have hn : j.val - 1 < 64 := by omega
    have hj' : j.val = (⟨j.val - 1, hn⟩ : Fin 64).val + 1 := by show j.val = j.val - 1 + 1; omega
    have hjn : (⟨(⟨j.val - 1, hn⟩ : Fin 64).val + 1, by omega⟩ : Fin 65) = j := Fin.ext hj'.symm
    rw [entry_succ _ _ _ _ b j e ⟨j.val - 1, hn⟩ hj', hpos, hjn, joined_succ x0 x1 x2 b j e ⟨j.val - 1, hn⟩ hj']
    simp only [hW]
    exact add_comm _ _

end Cert.ReferenceIdeal.RefSlab

end
-- ==== Proof.Bridge.lean ====
/-
  The two programs compute one function of the arguments. The kernel's result is the slab of its four operands as the
  region finds them (Final.lean); those operands are the patches, the weights transposed, the class token plus position
  row 0, and position rows 1 to 64 (Entry.lean); and the reference's result is the slab of exactly such operands
  (RefSlab.lean). Both programs cut the images into patches by the same reshape, transpose and reshape, so the patch
  arrays are one term and are never opened.
-/
import proofs.«179072_j33809982554293_2_alg».proof.Proof.Final
import proofs.«179072_j33809982554293_2_alg».proof.Proof.Entry
import proofs.«179072_j33809982554293_2_alg».proof.Proof.RefSlab

noncomputable section

namespace Cert.Bridge

open Idealize.ShloMosaic Idealize.ShloMosaic.TcCoe Idealize.SL.Sem Cert.PatchEmbed
open Cert.KernelIdeal Cert.KernelIdeal.Gen Cert.KernelIdeal.Entry

variable (m : (ℓ : Loc nD τ sig) → Buf (Elt Ideal) ℓ)

/-- The reference cuts the images into patches exactly as the kernel's program does. -/
theorem patches_same (x : S1024x1x3x32x32.Idx → EReal) :
    Cert.ReferenceIdeal.Read.val_main_v2 (F := Ideal) x = patches x := rfl

/-- The kernel's result array is the reference's result stage of the same arguments. -/
theorem whole_eq (c : Dev nD) :
    Cert.KernelIdeal.Final.whole m c
      = Cert.ReferenceIdeal.Read.val_main_v8 (F := Ideal) (argX m c) (argW m c) (argCls m c) (argPos m c) := by
  refine Eq.trans ?_ (Cert.ReferenceIdeal.RefSlab.result_eq (argX m c) (argW m c) (argCls m c) (argPos m c)
    (V m c main_v5) (V m c main_v8) (V m c main_v9) (weights_apply m c) (row0_apply m c) (positions_apply m c)).symm
  show slab (B := 1024) (V m c main_v3) (V m c main_v5) (V m c main_v8) (V m c main_v9)
    = slab (B := 1024) (Cert.ReferenceIdeal.Read.val_main_v2 (F := Ideal) (argX m c)) (V m c main_v5) (V m c main_v8) (V m c main_v9)
  rw [patches_same, patches_entry m c]

end Cert.Bridge

end
-- ==== Proof.lean ====
/- The five claims for the patch-embedding kernel. The kernel projects each of an image's 64 patches (48 numbers) through a
   `48 × 768` weight matrix, adds the patch's position row, and puts the class token plus position row 0 in front; the
   reference does the same with the weights untransposed and the position added last. Over the extended reals the two
   results agree entry by entry by commutativity of addition alone (Bridge.lean), so the precondition is never opened.
   The three frames are the generated ones (the reference's is its run with the result dropped); the kernel's
   idealization rewrote nothing, so `preserves` is `True`. -/
import proofs.«179072_j33809982554293_2_alg».proof.Defs
import proofs.«179072_j33809982554293_2_alg».proof.Proof.Gen.Kernel
import proofs.«179072_j33809982554293_2_alg».proof.Proof.Gen.Kernel.Skeleton
import proofs.«179072_j33809982554293_2_alg».proof.Proof.Gen.Kernel.Launch
import proofs.«179072_j33809982554293_2_alg».proof.Proof.Gen.Kernel.Points
import proofs.«179072_j33809982554293_2_alg».proof.Proof.Gen.Kernel.Frame
import proofs.«179072_j33809982554293_2_alg».proof.Proof.Gen.KernelIdeal
import proofs.«179072_j33809982554293_2_alg».proof.Proof.Gen.KernelIdeal.Skeleton
import proofs.«179072_j33809982554293_2_alg».proof.Proof.Gen.KernelIdeal.Launch
import proofs.«179072_j33809982554293_2_alg».proof.Proof.Gen.KernelIdeal.Points
import proofs.«179072_j33809982554293_2_alg».proof.Proof.Gen.KernelIdeal.Frame
import proofs.«179072_j33809982554293_2_alg».proof.Proof.Gen.ReferenceIdeal
import proofs.«179072_j33809982554293_2_alg».proof.Proof.Gen.Pre_finite_inputs
import proofs.«179072_j33809982554293_2_alg».proof.Proof.Gen.KernelIdeal.Value
import proofs.«179072_j33809982554293_2_alg».proof.Proof.Gen.ReferenceIdeal.Run
import proofs.«179072_j33809982554293_2_alg».proof.Proof.Gen.ReferenceIdeal.Read
import proofs.«179072_j33809982554293_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the slab of the arguments: the kernel's by its blocks (Final.lean), the
    reference's by its operations read entry by entry (RefSlab.lean), from memories agreeing on the arguments. -/
theorem algebraic : Cert.algebraic_KernelIdeal_ReferenceIdeal := by
  intro m ρ m' ρ' _ hagree
  refine ⟨fun c => Cert.KernelIdeal.Final.whole m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.Bridge.whole_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
